-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S2048x2048 : Shape := ⟨2, ![2048, 2048]⟩
abbrev S2048x512 : Shape := ⟨2, ![2048, 512]⟩
abbrev S6144x512 : Shape := ⟨2, ![6144, 512]⟩
abbrev S2048 : Shape := ⟨1, ![2048]⟩
abbrev S2560x2048 : Shape := ⟨2, ![2560, 2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S6144x512 : S_.BroadcastsInDim S6144x512 (![] : Fin 0 → Fin S6144x512.rank)
  reducesTo_S6144x512_S_d0_1 : S6144x512.ReducesTo [0, 1] S_
  bcast_S_S2048 : S_.BroadcastsInDim S2048 (![] : Fin 0 → Fin S2048.rank)
  reducesTo_S2048_S_d0 : S2048.ReducesTo [0] S_
  bcast_S_S2560x2048 : S_.BroadcastsInDim S2560x2048 (![] : Fin 0 → Fin S2560x2048.rank)
  reducesTo_S2560x2048_S_d0_1 : S2560x2048.ReducesTo [0, 1] S_

variable [Facts]

def fn_part2 {F : FTy → Type} [FloatOps F] (main_arg7 : FVec F S2560x2048 .f32) (main_arg8 : FVec F S2048 .f32) (main_v33 : IVec S_ 1) : IVec S_ 1 :=
  let main_v34 : FVec F S2560x2048 .f32 := Host.absf main_arg7
  let main_cst_12 : FVec F S_ .f32 := constant S_ .f32 0x7F800000#32
  let main_v35 : FVec F S2560x2048 .f32 := broadcastInDim S2560x2048 ![] bcast_S_S2560x2048 main_cst_12
  let main_v36 : IVec S2560x2048 1 := cmpf .olt main_v34 main_v35
  let main_c_13 : IVec S_ 1 := constantI S_ 1 1#1
  let main_v37 : IVec S_ 1 := (fun x v => Host.reduce IntOp.andi x v reducesTo_S2560x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S6144x512 .f32) (main_arg5 : FVec F S2048 .f32) (main_arg6 : FVec F S2048 .f32) (main_arg7 : FVec F S2560x2048 .f32) (main_arg8 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S6144x512 .f32 := Host.absf main_arg4
  let main_cst_6 : FVec F S_ .f32 := constant S_ .f32 0x7F800000#32
  let main_v20 : FVec F S6144x512 .f32 := broadcastInDim S6144x512 ![] bcast_S_S6144x512 main_cst_6
  let main_v21 : IVec S6144x512 1 := cmpf .olt main_v19 main_v20
  let main_c_7 : IVec S_ 1 := constantI S_ 1 1#1
  let main_v22 : IVec S_ 1 := (fun x v => Host.reduce IntOp.andi x v reducesTo_S6144x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x2048 .f32) (main_arg2 : FVec F S2048x2048 .f32) (main_arg3 : FVec F S2048x512 .f32) (main_arg4 : FVec F S6144x512 .f32) (main_arg5 : FVec F S2048 .f32) (main_arg6 : FVec F S2048 .f32) (main_arg7 : FVec F S2560x2048 .f32) (main_arg8 : FVec F S2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x2048 : Shape := ⟨2, ![4096, 2048]⟩
abbrev S2048x2048 : Shape := ⟨2, ![2048, 2048]⟩
abbrev S2048x512 : Shape := ⟨2, ![2048, 512]⟩
abbrev S6144x512 : Shape := ⟨2, ![6144, 512]⟩
abbrev S2048 : Shape := ⟨1, ![2048]⟩
abbrev S2560x2048 : Shape := ⟨2, ![2560, 2048]⟩
abbrev S512x2048 : Shape := ⟨2, ![512, 2048]⟩
abbrev S_ : Shape := ⟨0, ![]⟩
abbrev S1x2048 : Shape := ⟨2, ![1, 2048]⟩
abbrev S64x512 : Shape := ⟨2, ![64, 512]⟩
abbrev S64x2048 : Shape := ⟨2, ![64, 2048]⟩

abbrev nBuf : Space → Nat
  | .hbm => 54
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S2048x2048, .f32⟩
  | .hbm, ⟨3, _⟩ => ⟨S2048x512, .f32⟩
  | .hbm, ⟨4, _⟩ => ⟨S6144x512, .f32⟩
  | .hbm, ⟨5, _⟩ => ⟨S2048, .f32⟩
  | .hbm, ⟨6, _⟩ => ⟨S2048, .f32⟩
  | .hbm, ⟨7, _⟩ => ⟨S2560x2048, .f32⟩
  | .hbm, ⟨8, _⟩ => ⟨S2048, .f32⟩
  | .hbm, ⟨9, _⟩ => ⟨S512x2048, .f32⟩
  | .hbm, ⟨10, _⟩ => ⟨S512x2048, .bf16⟩
  | .hbm, ⟨11, _⟩ => ⟨S2048x2048, .bf16⟩
  | .hbm, ⟨12, _⟩ => ⟨S2048x512, .f32⟩
  | .hbm, ⟨13, _⟩ => ⟨S512x2048, .f32⟩
  | .hbm, ⟨14, _⟩ => ⟨S512x2048, .bf16⟩
  | .hbm, ⟨15, _⟩ => ⟨S2048x512, .f32⟩
  | .hbm, ⟨16, _⟩ => ⟨S512x2048, .f32⟩
  | .hbm, ⟨17, _⟩ => ⟨S512x2048, .bf16⟩
  | .hbm, ⟨18, _⟩ => ⟨S2048x512, .f32⟩
  | .hbm, ⟨19, _⟩ => ⟨S512x2048, .f32⟩
  | .hbm, ⟨20, _⟩ => ⟨S512x2048, .bf16⟩
  | .hbm, ⟨21, _⟩ => ⟨S512x2048, .f32⟩
  | .hbm, ⟨22, _⟩ => ⟨S512x2048, .bf16⟩
  | .hbm, ⟨23, _⟩ => ⟨S2048x2048, .f32⟩
  | .hbm, ⟨24, _⟩ => ⟨S2048x2048, .bf16⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .i1⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S1x2048, .f32⟩
  | .hbm, ⟨49, _⟩ => ⟨S1x2048, .f32⟩
  | .hbm, ⟨50, _⟩ => ⟨S4096x2048, .f32⟩
  | .hbm, ⟨51, _⟩ => ⟨S_, .i32⟩
  | .hbm, ⟨52, _⟩ => ⟨S_, .f32⟩
  | .hbm, ⟨53, _⟩ => ⟨S4096x2048, .f32⟩
  | .local _ .vmem, ⟨0, _⟩ => ⟨S64x512, .f32⟩
  | .local _ .vmem, ⟨1, _⟩ => ⟨S64x512, .f32⟩
  | .local _ .vmem, ⟨2, _⟩ => ⟨S64x2048, .f32⟩
  | .local _ .vmem, ⟨3, _⟩ => ⟨S64x2048, .f32⟩
  | .local _ .vmem, ⟨4, _⟩ => ⟨S512x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S64x2048, .f32⟩
  | .local _ .vmem, ⟨15, _⟩ => ⟨S64x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_call1_v0 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S2048x512_S512x2048_1_0 : S2048x512.Transposes [1, 0] S512x2048
  bitsLt_bf16_f32 : FTy.bits .bf16 < FTy.bits .f32
  slices_S6144x512_S2048x512_0_0 : S6144x512.Slices ![0, 0] S2048x512
  slices_S6144x512_S2048x512_2048_0 : S6144x512.Slices ![2048, 0] S2048x512
  slices_S6144x512_S2048x512_4096_0 : S6144x512.Slices ![4096, 0] S2048x512
  slices_S2560x2048_S512x2048_0_0 : S2560x2048.Slices ![0, 0] S512x2048
  slices_S2560x2048_S2048x2048_512_0 : S2560x2048.Slices ![512, 0] S2048x2048
  bcast_S_S2048 : S_.BroadcastsInDim S2048 (![] : Fin 0 → Fin S2048.rank)
  shapeCasts_S2048_S1x2048 : S2048.ShapeCasts S1x2048
  inb_S64x512_S64x512_0_0 : ∀ a, (![0, 0] : Fin 2 → Nat) a + S64x512.size a ≤ S64x512.size a
  h_S64x512 : 0 < S64x512.numel
  inb_S64x2048_S64x2048_0_0 : ∀ a, (![0, 0] : Fin 2 → Nat) a + S64x2048.size a ≤ S64x2048.size a
  h_S64x2048 : 0 < S64x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  pads_S4096x2048_S4096x2048_000_000 : S4096x2048.Pads (![0, 0] : Fin 2 → Nat) ![0, 0] ![0, 0] S4096x2048
  h_S_ : 0 < S_.numel
  dot_S64x512_S512x2048_S64x2048_1_0_0_1_n_n_wf : DotDims.WF S64x512 S512x2048 S64x2048 [1] [0] [0] [1] [] []
  dot_S64x2048_S2048x2048_S64x2048_1_0_0_1_n_n_wf : DotDims.WF S64x2048 S2048x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S4096x512.size a
  hwx0_0 : ∀ i : grid0.Coords, EltTy.bits .f32 = 32 ∨ (Rect.block (s := S4096x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S4096x2048.size a
  hwx0_12 : ∀ i : grid0.Coords, EltTy.bits .f32 = 32 ∨ (Rect.block (s := S4096x2048) S64x2048.size (cc0_transform_12 i) (hinb0_12 i)).WholeWords (EltTy.packing .f32)

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S64x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x2048 : Shape := ⟨2, ![4096, 2048]⟩
abbrev S2048x2048 : Shape := ⟨2, ![2048, 2048]⟩
abbrev S2048x512 : Shape := ⟨2, ![2048, 512]⟩
abbrev S6144x512 : Shape := ⟨2, ![6144, 512]⟩
abbrev S2048 : Shape := ⟨1, ![2048]⟩
abbrev S2560x2048 : Shape := ⟨2, ![2560, 2048]⟩
abbrev S_ : Shape := ⟨0, ![]⟩
abbrev S512x2048 : Shape := ⟨2, ![512, 2048]⟩
abbrev S512x6144 : Shape := ⟨2, ![512, 6144]⟩
abbrev S4096x6144 : Shape := ⟨2, ![4096, 6144]⟩
abbrev S1x2048 : Shape := ⟨2, ![1, 2048]⟩
abbrev S4096x2560 : Shape := ⟨2, ![4096, 2560]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S2048x2048, .f32⟩
  | .hbm, ⟨3, _⟩ => ⟨S2048x512, .f32⟩
  | .hbm, ⟨4, _⟩ => ⟨S6144x512, .f32⟩
  | .hbm, ⟨5, _⟩ => ⟨S2048, .f32⟩
  | .hbm, ⟨6, _⟩ => ⟨S2048, .f32⟩
  | .hbm, ⟨7, _⟩ => ⟨S2560x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .i1⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S512x2048, .f32⟩
  | .hbm, ⟨32, _⟩ => ⟨S4096x2048, .f32⟩
  | .hbm, ⟨33, _⟩ => ⟨S4096x2048, .f32⟩
  | .hbm, ⟨34, _⟩ => ⟨S512x6144, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S_, .f32⟩
  | .hbm, ⟨39, _⟩ => ⟨S4096x6144, .f32⟩
  | .hbm, ⟨40, _⟩ => ⟨S4096x6144, .f32⟩
  | .hbm, ⟨41, _⟩ => ⟨S_, .f32⟩
  | .hbm, ⟨42, _⟩ => ⟨S4096x6144, .f32⟩
  | .hbm, ⟨43, _⟩ => ⟨S4096x6144, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S4096x2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2560, .f32⟩
  | .hbm, ⟨63, _⟩ => ⟨S4096x2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S1x2048, .f32⟩
  | .hbm, ⟨77, _⟩ => ⟨S4096x2048, .f32⟩
  | .hbm, ⟨78, _⟩ => ⟨S4096x2048, .i1⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .i32⟩
  | .hbm, ⟨84, _⟩ => ⟨S_, .f32⟩
  | .hbm, ⟨85, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c : Ref sig .tc := ⟨.hbm, 83, rfl⟩
abbrev main_call2_v0 : Ref sig .tc := ⟨.hbm, 84, rfl⟩
abbrev main_v54 : Ref sig .tc := ⟨.hbm, 85, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  transposes_S2048x512_S512x2048_1_0 : S2048x512.Transposes [1, 0] S512x2048
  transposes_S6144x512_S512x6144_1_0 : S6144x512.Transposes [1, 0] S512x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  concatenates_S4096x512_S4096x2048_S4096x2560_d1 : Shape.Concatenates [S4096x512, S4096x2048] S4096x2560 1
  bcast_S_S4096x2048 : S_.BroadcastsInDim S4096x2048 (![] : Fin 0 → Fin S4096x2048.rank)
  pads_S4096x2048_S4096x2048_000_000 : S4096x2048.Pads (![0, 0] : Fin 2 → Nat) ![0, 0] ![0, 0] S4096x2048
  h_S_ : 0 < S_.numel
  dot_S4096x512_S512x2048_S4096x2048_1_0_0_1_n_n_wf : DotDims.WF S4096x512 S512x2048 S4096x2048 [1] [0] [0] [1] [] []
  dot_S4096x2048_S2048x2048_S4096x2048_1_0_0_1_n_n_wf : DotDims.WF S4096x2048 S2048x2048 S4096x2048 [1] [0] [0] [1] [] []
  dot_S4096x512_S512x6144_S4096x6144_1_0_0_1_n_n_wf : DotDims.WF S4096x512 S512x6144 S4096x6144 [1] [0] [0] [1] [] []
  dot_S4096x2560_S2560x2048_S4096x2048_1_0_0_1_n_n_wf : DotDims.WF S4096x2560 S2560x2048 S4096x2048 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x512_S512x6144_S4096x6144_1_0_0_1_n_n : DotDims S4096x512 S512x6144 S4096x6144 where
  lhsContracting := [1]
  rhsContracting := [0]
  lhsNonContracting := [0]
  rhsNonContracting := [1]
  lhsBatch := []
  rhsBatch := []
  wf := dot_S4096x512_S512x6144_S4096x6144_1_0_0_1_n_n_wf
def dot_S4096x2560_S2560x2048_S4096x2048_1_0_0_1_n_n : DotDims S4096x2560 S2560x2048 S4096x2048 where
  lhsContracting := [1]
  rhsContracting := [0]
  lhsNonContracting := [0]
  rhsNonContracting := [1]
  lhsBatch := []
  rhsBatch := []
  wf := dot_S4096x2560_S2560x2048_S4096x2048_1_0_0_1_n_n_wf

class Facts : Prop extends Facts₀ where

variable [Facts]
-- ==== Proof.CellSpec.lean ====
/-
  The recurrent cell as ONE function of the argument arrays, entry by entry, on the extended reals.

  One batch row of the cell (`rowOut`). Given the row `x` of the inputs (512 entries), the row `p` of the previous
  state (2048 entries) and, as functions of two indices, the weights `winT`, `wi`, `wf`, `wo`, `sg1` (512 × 2048)
  and `wres`, `sg2` (2048 × 2048), and the per-unit leak rate `lk`, threshold `th` and bias `bs`:
    gate w a   = σ (Σ_k x_k · w k a)
    drive a    = Σ_k x_k · winT k a + Σ_k p_k · wres k a
    state a    = gate wo a · ((1 − lk a) · (gate wf a · p_a) + lk a · tanh (gate wi a · drive a))
    pre a      = Σ_{k < 512} x_k · sg1 k a + Σ_{k < 2048} state k · sg2 k a + bs a
    s a        = state a · σ (pre a)
    out a      = s a − th a  if  s a > th a,  else  s a
  where σ z = 1 / (1 + e^{−z}).

  The result array `G` is `rowOut` of each row of the argument arrays: the gate weights are the three row blocks of
  `W_gate` (rows a, 2048 + a, 4096 + a for unit a) transposed, `winT` is `W_in` transposed, `sg1` and `sg2` are the
  first 512 and the last 2048 rows of `sg_kernel`, the leak rate is σ of its parameter and the threshold the softplus of
  its parameter, entry by entry.

  The semantic gate's pre-activation is written as the sum over the first 512 rows of `sg_kernel` plus the sum over the
  last 2048: the one place where two programs may group this sum differently (one contraction over the row
  `[x, state]` of length 2560). Splitting a finite sum at a position needs only that addition on the extended reals is
  commutative and associative, so no entry has to be finite (`sum_split`).
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx
open scoped BigOperators

/-- The shapes of the argument arrays and of the result. -/
abbrev ShIn : Shape := ⟨2, ![4096, 512]⟩
abbrev ShSt : Shape := ⟨2, ![4096, 2048]⟩
abbrev ShRes : Shape := ⟨2, ![2048, 2048]⟩
abbrev ShWin : Shape := ⟨2, ![2048, 512]⟩
abbrev ShGate : Shape := ⟨2, ![6144, 512]⟩
abbrev ShVec : Shape := ⟨1, ![2048]⟩
abbrev ShSg : Shape := ⟨2, ![2560, 2048]⟩

/-- The literals `1.0` and `0.0` as both programs spell them. -/
abbrev one : Ideal .f32 := Ideal.ofBits .f32 0x3F800000#32
abbrev zero : Ideal .f32 := Ideal.ofBits .f32 0x00000000#32

/-- The literal `1.0` denotes the real number one. -/
theorem one_eq : one = (1 : EReal) := by
  simp [Ideal.ofBits, Ideal.ieee, -EReal.coe_mul]; norm_num

/-- `σ z = 1 / (1 + e^{−z})`, spelled with the literal `1.0`. -/
def sigm (z : Ideal .f32) : Ideal .f32 :=
  FloatOps.hostDivf one (FloatOps.addf one (FloatOps.hostUnary .exp (FloatOps.hostNegf z)))

/-- The extended reals' logistic function is `σ`: its definition is `1 / (1 + e^{−z})` with the number one. -/
theorem logistic_eq_sigm (z : Ideal .f32) : FloatOps.logistic z = sigm z := by
  show Ideal.logistic z = Ideal.div one (one + Ideal.exp (-z))
  rw [one_eq]; rfl

/-- `softplus z = log (1 + e^z)` in its overflow-safe spelling `max z 0 + log1p (e^{−|z − 0|})`, with the guard for
    a difference that is not a number (which returns `z + 0`). -/
def softplus (z : Ideal .f32) : Ideal .f32 :=
  Scalar.select (FloatOps.cmpf .une (FloatOps.subf z zero) (FloatOps.subf z zero))
    (FloatOps.addf z zero)
    (FloatOps.addf (FloatOps.maximumf z zero)
      (FloatOps.hostUnary .log1p (FloatOps.hostUnary .exp (FloatOps.hostNegf (FloatOps.hostAbsf (FloatOps.subf z zero))))))

/-! ## One batch row -/

section Row
variable (xr : Fin 512 → Ideal .f32) (pr : Fin 2048 → Ideal .f32)
  (winT wi wf wo sg1 : Fin 512 → Fin 2048 → Ideal .f32) (wres sg2 : Fin 2048 → Fin 2048 → Ideal .f32)
  (lk th bs : Fin 2048 → Ideal .f32)

/-- A gate of unit `a`: `σ` of the input row against column `a` of the gate's weights. -/
def rowGate (w : Fin 512 → Fin 2048 → Ideal .f32) (a : Fin 2048) : Ideal .f32 :=
  sigm (∑ k : Fin 512, xr k * w k a)

/-- What drives unit `a`: the input row through `winT` plus the previous state's row through `wres`. -/
def rowDrive (a : Fin 2048) : Ideal .f32 :=
  (∑ k : Fin 512, xr k * winT k a) + ∑ k : Fin 2048, pr k * wres k a

/-- The gated, leaky state of unit `a`, before the semantic gate. -/
def rowState (a : Fin 2048) : Ideal .f32 :=
  rowGate xr wo a *
    ((one - lk a) * (rowGate xr wf a * pr a) + lk a * Ideal.tanh (rowGate xr wi a * rowDrive xr pr winT wres a))

/-- The semantic gate's pre-activation of unit `a`. -/
def rowPre (a : Fin 2048) : Ideal .f32 :=
  (∑ k : Fin 512, xr k * sg1 k a) + (∑ k : Fin 2048, rowState xr pr winT wi wf wo wres lk k * sg2 k a) + bs a

/-- The state after the semantic gate. -/
def rowGated (a : Fin 2048) : Ideal .f32 :=
  rowState xr pr winT wi wf wo wres lk a * sigm (rowPre xr pr winT wi wf wo sg1 wres sg2 lk bs a)

/-- The result for unit `a`: above its threshold it spikes and is lowered by the threshold. -/
def rowOut (a : Fin 2048) : Ideal .f32 :=
  Scalar.select (FloatOps.cmpf (F := Ideal) (φ := .f32) .ogt (rowGated xr pr winT wi wf wo sg1 wres sg2 lk bs a) (th a))
    (rowGated xr pr winT wi wf wo sg1 wres sg2 lk bs a - th a)
    (rowGated xr pr winT wi wf wo sg1 wres sg2 lk bs a)

end Row

/-! ## The whole result array -/

section Whole
variable (x : FVec Ideal ShIn .f32) (p : FVec Ideal ShSt .f32) (wres : FVec Ideal ShRes .f32)
  (win : FVec Ideal ShWin .f32) (wg : FVec Ideal ShGate .f32) (lp tp : FVec Ideal ShVec .f32)
  (sg : FVec Ideal ShSg .f32) (bias : FVec Ideal ShVec .f32)

/-- Entry `(b, a)` of the result: `rowOut` of row `b` of the inputs and of the previous state. -/
def out (b : Fin 4096) (a : Fin 2048) : Ideal .f32 :=
  rowOut (fun k => x (ix2 b k)) (fun k => p (ix2 b k))
    (fun k a => win (ix2 a k))
    (fun k a => wg (ix2 (⟨a.val, by omega⟩ : Fin 6144) k))
    (fun k a => wg (ix2 (⟨2048 + a.val, by omega⟩ : Fin 6144) k))
    (fun k a => wg (ix2 (⟨4096 + a.val, by omega⟩ : Fin 6144) k))
    (fun k a => sg (ix2 (⟨k.val, by omega⟩ : Fin 2560) a))
    (fun k a => wres (ix2 k a))
    (fun k a => sg (ix2 (⟨512 + k.val, by omega⟩ : Fin 2560) a))
    (fun a => sigm (lp (ix1 a))) (fun a => softplus (tp (ix1 a))) (fun a => bias (ix1 a)) a

/-- The whole result array. -/
def G : FVec Ideal ShSt .f32 := fun i => out x p wres win wg lp tp sg bias (i 0) (i 1)

theorem G_apply (b : Fin 4096) (a : Fin 2048) :
    G x p wres win wg lp tp sg bias (ix2 b a) = out x p wres win wg lp tp sg bias b a := rfl

end Whole

/-- A sum over 2560 positions is the sum over the first 512 plus the sum over the last 2048: addition is
    commutative and associative, nothing else is used. -/
theorem sum_split (f : Fin 2560 → EReal) :
    ∑ k : Fin 2560, f k
      = (∑ k : Fin 512, f ⟨k.val, by omega⟩) + ∑ k : Fin 2048, f ⟨512 + k.val, by omega⟩ :=
  Fin.sum_univ_add (a := 512) (b := 2048) f

end Cert.Cell

end
-- ==== Proof.EntryBlocks.lean ====
/-
  What the kernel's windows hold at a grid point, entry by entry, in terms of the argument arrays.

  The grid has 64 points; point `t` works on rows `64 t … 64 t + 63` of the batch. Windows 0 and 1 (the inputs and
  the previous state) move with the point: entry `(r, k)` of their block at `t` is entry `(64 t + r, k)` of the array.
  Windows 2–11 stay on block (0, 0), which is their whole array, at every point; their arrays are written by host
  operations before the region, each a re-indexing (a transpose, a slice at a row offset, a reshape of a vector to a
  1 × 2048 row) of an argument — a change of float format in between is the identity on the extended reals — except
  the leak rates, which are `σ` of their parameter, and the thresholds, which are the softplus of theirs:
    window 2 (k, a) = W_in (a, k)              window 3 (k, a) = W_res (k, a)
    window 4 (k, a) = W_gate (a, k)            window 5 (k, a) = W_gate (2048 + a, k)      window 6 (k, a) = W_gate (4096 + a, k)
    window 7 (k, a) = sg_kernel (k, a)         window 8 (k, a) = sg_kernel (512 + k, a)
    window 9 (0, a) = σ (leak_rate_param a)    window 10 (0, a) = softplus (spike_threshold_param a)    window 11 (0, a) = sg_bias a
-/
import proofs.«144517_j88399016887038_1_alg».proof.Proof.Gen.KernelIdeal.Frame
import proofs.«144517_j88399016887038_1_alg».proof.Proof.CellSpec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The index maps, decided over the 64 grid points -/

/-- Windows 0, 1 and 12 are on block `(t, 0)` at point `t`; every other window is on block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_12.index t (0 : Fin 2) = t.val ∧ win0_12.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- A grid point's first row is a row of the batch. -/
theorem row_lt (t : Fin cfg0.N) (r : Fin 64) : 64 * t.val + r.val < 4096 := by
  have := t.isLt; have h : cfg0.N = 64 := N_0; omega

/-! ## The arrays the host writes before the region -/

theorem V_v1 (c : Dev nD) :
    (V m c main_v1 : S512x2048.Idx → EReal)
      = truncf (F := Ideal) .bf16 (transpose S512x2048 [1, 0] (m ((c : Thread nD τ).loc main_arg3)) transposes_S2048x512_S512x2048_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v2 (c : Dev nD) :
    (V m c main_v2 : S2048x2048.Idx → EReal) = truncf (F := Ideal) .bf16 (m ((c : Thread nD τ).loc main_arg2)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v5 (c : Dev nD) :
    (V m c main_v5 : S512x2048.Idx → EReal)
      = truncf (F := Ideal) .bf16 (transpose S512x2048 [1, 0] (extractStridedSlice S2048x512 ![0, 0] (m ((c : Thread nD τ).loc main_arg4)) slices_S6144x512_S2048x512_0_0) transposes_S2048x512_S512x2048_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v8 (c : Dev nD) :
    (V m c main_v8 : S512x2048.Idx → EReal)
      = truncf (F := Ideal) .bf16 (transpose S512x2048 [1, 0] (extractStridedSlice S2048x512 ![2048, 0] (m ((c : Thread nD τ).loc main_arg4)) slices_S6144x512_S2048x512_2048_0) transposes_S2048x512_S512x2048_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v11 (c : Dev nD) :
    (V m c main_v11 : S512x2048.Idx → EReal)
      = truncf (F := Ideal) .bf16 (transpose S512x2048 [1, 0] (extractStridedSlice S2048x512 ![4096, 0] (m ((c : Thread nD τ).loc main_arg4)) slices_S6144x512_S2048x512_4096_0) transposes_S2048x512_S512x2048_1_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v13 (c : Dev nD) :
    (V m c main_v13 : S512x2048.Idx → EReal)
      = truncf (F := Ideal) .bf16 (extractStridedSlice S512x2048 ![0, 0] (m ((c : Thread nD τ).loc main_arg7)) slices_S2560x2048_S512x2048_0_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v15 (c : Dev nD) :
    (V m c main_v15 : S2048x2048.Idx → EReal)
      = truncf (F := Ideal) .bf16 (extractStridedSlice S2048x2048 ![512, 0] (m ((c : Thread nD τ).loc main_arg7)) slices_S2560x2048_S2048x2048_512_0) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v25 (c : Dev nD) :
    (V m c main_v25 : S1x2048.Idx → EReal)
      = shapeCast S1x2048 (m ((c : Thread nD τ).loc main_arg8) : S2048.Idx → EReal) shapeCasts_S2048_S1x2048 := by
  dsimp only [Gen.V, Gen.V0]
  simp only [Gen.hostOps0, Gen.hostOps0_1, Gen.hostOps0_2, List.flatten_cons, List.flatten_nil, List.append_nil, List.cons_append, List.nil_append]
  after_results
  rfl

/-- `1 / (1 + e^{−·})` of a vector, lane by lane, as the host spells it. -/
def leakRow (x : S2048.Idx → EReal) : S2048.Idx → EReal :=
  Host.divf (F := Ideal) (broadcastInDim S2048 ![] bcast_S_S2048 (constant (F := Ideal) S_ .f32 0x3F800000#32))
    (addf (broadcastInDim S2048 ![] bcast_S_S2048 (constant (F := Ideal) S_ .f32 0x3F800000#32)) (Host.exp (Host.negf x)))

theorem leakRow_apply (x : S2048.Idx → EReal) (a : Fin 2048) : leakRow x (ix1 a) = Cert.Cell.sigm (x (ix1 a)) := rfl

/-- The softplus of a vector, lane by lane, as the host spells it. -/
def thrRow (x : S2048.Idx → EReal) : S2048.Idx → EReal :=
  select
    (cmpf .une
      (subf x (broadcastInDim S2048 ![] bcast_S_S2048 (constant (F := Ideal) S_ .f32 0x00000000#32)))
      (subf x (broadcastInDim S2048 ![] bcast_S_S2048 (constant (F := Ideal) S_ .f32 0x00000000#32))))
    (addf x (broadcastInDim S2048 ![] bcast_S_S2048 (constant (F := Ideal) S_ .f32 0x00000000#32)))
    (addf
      (maximumf x (broadcastInDim S2048 ![] bcast_S_S2048 (constant (F := Ideal) S_ .f32 0x00000000#32)))
      (Host.log1p (Host.exp (Host.negf (Host.absf
        (subf x (broadcastInDim S2048 ![] bcast_S_S2048 (constant (F := Ideal) S_ .f32 0x00000000#32))))))))

theorem thrRow_apply (x : S2048.Idx → EReal) (a : Fin 2048) : thrRow x (ix1 a) = Cert.Cell.softplus (x (ix1 a)) := rfl

/-- The leak rates' row: `leakRow` of the parameter, reshaped to one row. -/
theorem V_v22 (c : Dev nD) :
    (V m c main_v22 : S1x2048.Idx → EReal)
      = shapeCast S1x2048 (leakRow (m ((c : Thread nD τ).loc main_arg5))) shapeCasts_S2048_S1x2048 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 2000000 in
/-- The thresholds' row: `thrRow` of the parameter, reshaped to one row. -/
theorem V_v24 (c : Dev nD) :
    (V m c main_v24 : S1x2048.Idx → EReal)
      = shapeCast S1x2048 (thrRow (m ((c : Thread nD τ).loc main_arg6))) shapeCasts_S2048_S1x2048 := by
  dsimp only [Gen.V, Gen.V0]
  simp only [Gen.hostOps0, Gen.hostOps0_1, Gen.hostOps0_2, List.flatten_cons, List.flatten_nil, List.append_nil, List.cons_append, List.nil_append]
  after_results_simp
  rfl

/-! ## Each window's block at a point, read at an index -/

/-- Window 0: rows `64 t …` of the inputs. -/
theorem iblk0_apply (c : Dev nD) (t : Fin cfg0.N) (r : Fin 64) (k : Fin 512) :
    iblk m c 0 t (ix2 r k)
      = (m ((c : Thread nD τ).loc main_arg0) : S4096x512.Idx → EReal) (ix2 (⟨64 * t.val + r.val, row_lt t r⟩ : Fin 4096) k) := by
  unfold iblk
  rw [show V m c (Pipeline.arrRef spec0 0) = m ((c : Thread nD τ).loc main_arg0) from V_main_arg0 m c]
  show (m ((c : Thread nD τ).loc main_arg0) : S4096x512.Idx → EReal) (((cfg0.win 0).blk t).view.emb (ix2 r k)) = _
  refine congrArg _ (funext fun d => Fin.ext ?_)
  obtain ⟨⟨e0, e1⟩, -⟩ := idx_facts t
  match d with
  | ⟨0, _⟩ => show win0_0.index t (0 : Fin 2) * 64 + 1 * r.val = 64 * t.val + r.val; omega
  | ⟨1, _⟩ => show win0_0.index t (1 : Fin 2) * 512 + 1 * k.val = k.val; omega

/-- Window 1: rows `64 t …` of the previous state. -/
theorem iblk1_apply (c : Dev nD) (t : Fin cfg0.N) (r : Fin 64) (k : Fin 2048) :
    iblk m c 1 t (ix2 r k)
      = (m ((c : Thread nD τ).loc main_arg1) : S4096x2048.Idx → EReal) (ix2 (⟨64 * t.val + r.val, row_lt t r⟩ : Fin 4096) k) := by
  unfold iblk
  rw [show V m c (Pipeline.arrRef spec0 1) = m ((c : Thread nD τ).loc main_arg1) from V_main_arg1 m c]
  show (m ((c : Thread nD τ).loc main_arg1) : S4096x2048.Idx → EReal) (((cfg0.win 1).blk t).view.emb (ix2 r k)) = _
  refine congrArg _ (funext fun d => Fin.ext ?_)
  obtain ⟨-, ⟨e0, e1⟩, -⟩ := idx_facts t
  match d with
  | ⟨0, _⟩ => show win0_1.index t (0 : Fin 2) * 64 + 1 * r.val = 64 * t.val + r.val; omega
  | ⟨1, _⟩ => show win0_1.index t (1 : Fin 2) * 2048 + 1 * k.val = k.val; omega

/-- Window 2: `W_in` transposed. -/
theorem iblk2_apply (c : Dev nD) (t : Fin cfg0.N) (k : Fin 512) (a : Fin 2048) :
    iblk m c 2 t (ix2 k a) = (m ((c : Thread nD τ).loc main_arg3) : S2048x512.Idx → EReal) (ix2 a k) := by
  unfold iblk
  rw [show V m c (Pipeline.arrRef spec0 2) = _ from V_v1 m c]
  have he : ((cfg0.win 2).blk t).view.emb (ix2 k a) = (ix2 k a : S512x2048.Idx) := by
    obtain ⟨-, -, -, ⟨e0, e1⟩, -⟩ := idx_facts t
    refine funext fun d => Fin.ext ?_
    match d with
    | ⟨0, _⟩ => show win0_2.index t (0 : Fin 2) * 512 + 1 * k.val = k.val; omega
    | ⟨1, _⟩ => show win0_2.index t (1 : Fin 2) * 2048 + 1 * a.val = a.val; omega
  show truncf (F := Ideal) .bf16 (transpose S512x2048 [1, 0] (m ((c : Thread nD τ).loc main_arg3)) transposes_S2048x512_S512x2048_1_0) bitsLt_bf16_f32 (((cfg0.win 2).blk t).view.emb (ix2 k a)) = _
  rw [he]
  exact transpose_apply [1, 0] _ transposes_S2048x512_S512x2048_1_0 (ix2 k a) (ix2 a k) (fun b => match b with
    | ⟨0, _⟩ => rfl
    | ⟨1, _⟩ => rfl)

/-- Window 3: `W_res`. -/
theorem iblk3_apply (c : Dev nD) (t : Fin cfg0.N) (k : Fin 2048) (a : Fin 2048) :
    iblk m c 3 t (ix2 k a) = (m ((c : Thread nD τ).loc main_arg2) : S2048x2048.Idx → EReal) (ix2 k a) := by
  unfold iblk
  rw [show V m c (Pipeline.arrRef spec0 3) = _ from V_v2 m c]
  have he : ((cfg0.win 3).blk t).view.emb (ix2 k a) = (ix2 k a : S2048x2048.Idx) := by
    obtain ⟨-, -, -, -, ⟨e0, e1⟩, -⟩ := idx_facts t
    refine funext fun d => Fin.ext ?_
    match d with
    | ⟨0, _⟩ => show win0_3.index t (0 : Fin 2) * 2048 + 1 * k.val = k.val; omega
    | ⟨1, _⟩ => show win0_3.index t (1 : Fin 2) * 2048 + 1 * a.val = a.val; omega
  show truncf (F := Ideal) .bf16 (m ((c : Thread nD τ).loc main_arg2)) bitsLt_bf16_f32 (((cfg0.win 3).blk t).view.emb (ix2 k a)) = _
  rw [he]
  rfl

/-- Windows 4, 5, 6: the three row blocks of `W_gate`, transposed. -/
theorem iblk4_apply (c : Dev nD) (t : Fin cfg0.N) (k : Fin 512) (a : Fin 2048) :
    iblk m c 4 t (ix2 k a)
      = (m ((c : Thread nD τ).loc main_arg4) : S6144x512.Idx → EReal) (ix2 (⟨a.val, by omega⟩ : Fin 6144) k) := by
  unfold iblk
  rw [show V m c (Pipeline.arrRef spec0 4) = _ from V_v5 m c]
  have he : ((cfg0.win 4).blk t).view.emb (ix2 k a) = (ix2 k a : S512x2048.Idx) := by
    obtain ⟨-, -, -, -, -, ⟨e0, e1⟩, -⟩ := idx_facts t
    refine funext fun d => Fin.ext ?_
    match d with
    | ⟨0, _⟩ => show win0_4.index t (0 : Fin 2) * 512 + 1 * k.val = k.val; omega
    | ⟨1, _⟩ => show win0_4.index t (1 : Fin 2) * 2048 + 1 * a.val = a.val; omega
  show truncf (F := Ideal) .bf16 (transpose S512x2048 [1, 0] (extractStridedSlice S2048x512 ![0, 0] (m ((c : Thread nD τ).loc main_arg4)) slices_S6144x512_S2048x512_0_0) transposes_S2048x512_S512x2048_1_0) bitsLt_bf16_f32 (((cfg0.win 4).blk t).view.emb (ix2 k a)) = _
  rw [he]
  show transpose S512x2048 [1, 0] (extractStridedSlice S2048x512 ![0, 0] (m ((c : Thread nD τ).loc main_arg4)) slices_S6144x512_S2048x512_0_0) transposes_S2048x512_S512x2048_1_0 (ix2 k a) = _
  refine (transpose_apply [1, 0] _ transposes_S2048x512_S512x2048_1_0 (ix2 k a) (ix2 a k) (fun b => match b with
    | ⟨0, _⟩ => rfl
    | ⟨1, _⟩ => rfl)).trans ?_
  exact extractStridedSlice_apply ![0, 0] _ slices_S6144x512_S2048x512_0_0 (ix2 a k) (ix2 (⟨a.val, by omega⟩ : Fin 6144) k) (fun d => match d with
    | ⟨0, _⟩ => by show a.val = 0 + a.val; omega
    | ⟨1, _⟩ => by show k.val = 0 + k.val; omega)

theorem iblk5_apply (c : Dev nD) (t : Fin cfg0.N) (k : Fin 512) (a : Fin 2048) :
    iblk m c 5 t (ix2 k a)
      = (m ((c : Thread nD τ).loc main_arg4) : S6144x512.Idx → EReal) (ix2 (⟨2048 + a.val, by omega⟩ : Fin 6144) k) := by
  unfold iblk
  rw [show V m c (Pipeline.arrRef spec0 5) = _ from V_v8 m c]
  have he : ((cfg0.win 5).blk t).view.emb (ix2 k a) = (ix2 k a : S512x2048.Idx) := by
    obtain ⟨-, -, -, -, -, -, ⟨e0, e1⟩, -⟩ := idx_facts t
    refine funext fun d => Fin.ext ?_
    match d with
    | ⟨0, _⟩ => show win0_5.index t (0 : Fin 2) * 512 + 1 * k.val = k.val; omega
    | ⟨1, _⟩ => show win0_5.index t (1 : Fin 2) * 2048 + 1 * a.val = a.val; omega
  show truncf (F := Ideal) .bf16 (transpose S512x2048 [1, 0] (extractStridedSlice S2048x512 ![2048, 0] (m ((c : Thread nD τ).loc main_arg4)) slices_S6144x512_S2048x512_2048_0) transposes_S2048x512_S512x2048_1_0) bitsLt_bf16_f32 (((cfg0.win 5).blk t).view.emb (ix2 k a)) = _
  rw [he]
  show transpose S512x2048 [1, 0] (extractStridedSlice S2048x512 ![2048, 0] (m ((c : Thread nD τ).loc main_arg4)) slices_S6144x512_S2048x512_2048_0) transposes_S2048x512_S512x2048_1_0 (ix2 k a) = _
  refine (transpose_apply [1, 0] _ transposes_S2048x512_S512x2048_1_0 (ix2 k a) (ix2 a k) (fun b => match b with
    | ⟨0, _⟩ => rfl
    | ⟨1, _⟩ => rfl)).trans ?_
  exact extractStridedSlice_apply ![2048, 0] _ slices_S6144x512_S2048x512_2048_0 (ix2 a k) (ix2 (⟨2048 + a.val, by omega⟩ : Fin 6144) k) (fun d => match d with
    | ⟨0, _⟩ => by show 2048 + a.val = 2048 + a.val; omega
    | ⟨1, _⟩ => by show k.val = 0 + k.val; omega)

theorem iblk6_apply (c : Dev nD) (t : Fin cfg0.N) (k : Fin 512) (a : Fin 2048) :
    iblk m c 6 t (ix2 k a)
      = (m ((c : Thread nD τ).loc main_arg4) : S6144x512.Idx → EReal) (ix2 (⟨4096 + a.val, by omega⟩ : Fin 6144) k) := by
  unfold iblk
  rw [show V m c (Pipeline.arrRef spec0 6) = _ from V_v11 m c]
  have he : ((cfg0.win 6).blk t).view.emb (ix2 k a) = (ix2 k a : S512x2048.Idx) := by
    obtain ⟨-, -, -, -, -, -, -, ⟨e0, e1⟩, -⟩ := idx_facts t
    refine funext fun d => Fin.ext ?_
    match d with
    | ⟨0, _⟩ => show win0_6.index t (0 : Fin 2) * 512 + 1 * k.val = k.val; omega
    | ⟨1, _⟩ => show win0_6.index t (1 : Fin 2) * 2048 + 1 * a.val = a.val; omega
  show truncf (F := Ideal) .bf16 (transpose S512x2048 [1, 0] (extractStridedSlice S2048x512 ![4096, 0] (m ((c : Thread nD τ).loc main_arg4)) slices_S6144x512_S2048x512_4096_0) transposes_S2048x512_S512x2048_1_0) bitsLt_bf16_f32 (((cfg0.win 6).blk t).view.emb (ix2 k a)) = _
  rw [he]
  show transpose S512x2048 [1, 0] (extractStridedSlice S2048x512 ![4096, 0] (m ((c : Thread nD τ).loc main_arg4)) slices_S6144x512_S2048x512_4096_0) transposes_S2048x512_S512x2048_1_0 (ix2 k a) = _
  refine (transpose_apply [1, 0] _ transposes_S2048x512_S512x2048_1_0 (ix2 k a) (ix2 a k) (fun b => match b with
    | ⟨0, _⟩ => rfl
    | ⟨1, _⟩ => rfl)).trans ?_
  exact extractStridedSlice_apply ![4096, 0] _ slices_S6144x512_S2048x512_4096_0 (ix2 a k) (ix2 (⟨4096 + a.val, by omega⟩ : Fin 6144) k) (fun d => match d with
    | ⟨0, _⟩ => by show 4096 + a.val = 4096 + a.val; omega
    | ⟨1, _⟩ => by show k.val = 0 + k.val; omega)

/-- Windows 7 and 8: the first 512 and the last 2048 rows of `sg_kernel`. -/
theorem iblk7_apply (c : Dev nD) (t : Fin cfg0.N) (k : Fin 512) (a : Fin 2048) :
    iblk m c 7 t (ix2 k a)
      = (m ((c : Thread nD τ).loc main_arg7) : S2560x2048.Idx → EReal) (ix2 (⟨k.val, by omega⟩ : Fin 2560) a) := by
  unfold iblk
  rw [show V m c (Pipeline.arrRef spec0 7) = _ from V_v13 m c]
  have he : ((cfg0.win 7).blk t).view.emb (ix2 k a) = (ix2 k a : S512x2048.Idx) := by
    obtain ⟨-, -, -, -, -, -, -, -, ⟨e0, e1⟩, -⟩ := idx_facts t
    refine funext fun d => Fin.ext ?_
    match d with
    | ⟨0, _⟩ => show win0_7.index t (0 : Fin 2) * 512 + 1 * k.val = k.val; omega
    | ⟨1, _⟩ => show win0_7.index t (1 : Fin 2) * 2048 + 1 * a.val = a.val; omega
  show truncf (F := Ideal) .bf16 (extractStridedSlice S512x2048 ![0, 0] (m ((c : Thread nD τ).loc main_arg7)) slices_S2560x2048_S512x2048_0_0) bitsLt_bf16_f32 (((cfg0.win 7).blk t).view.emb (ix2 k a)) = _
  rw [he]
  exact extractStridedSlice_apply ![0, 0] _ slices_S2560x2048_S512x2048_0_0 (ix2 k a) (ix2 (⟨k.val, by omega⟩ : Fin 2560) a) (fun d => match d with
    | ⟨0, _⟩ => by show k.val = 0 + k.val; omega
    | ⟨1, _⟩ => by show a.val = 0 + a.val; omega)

theorem iblk8_apply (c : Dev nD) (t : Fin cfg0.N) (k : Fin 2048) (a : Fin 2048) :
    iblk m c 8 t (ix2 k a)
      = (m ((c : Thread nD τ).loc main_arg7) : S2560x2048.Idx → EReal) (ix2 (⟨512 + k.val, by omega⟩ : Fin 2560) a) := by
  unfold iblk
  rw [show V m c (Pipeline.arrRef spec0 8) = _ from V_v15 m c]
  have he : ((cfg0.win 8).blk t).view.emb (ix2 k a) = (ix2 k a : S2048x2048.Idx) := by
    obtain ⟨-, -, -, -, -, -, -, -, -, ⟨e0, e1⟩, -⟩ := idx_facts t
    refine funext fun d => Fin.ext ?_
    match d with
    | ⟨0, _⟩ => show win0_8.index t (0 : Fin 2) * 2048 + 1 * k.val = k.val; omega
    | ⟨1, _⟩ => show win0_8.index t (1 : Fin 2) * 2048 + 1 * a.val = a.val; omega
  show truncf (F := Ideal) .bf16 (extractStridedSlice S2048x2048 ![512, 0] (m ((c : Thread nD τ).loc main_arg7)) slices_S2560x2048_S2048x2048_512_0) bitsLt_bf16_f32 (((cfg0.win 8).blk t).view.emb (ix2 k a)) = _
  rw [he]
  exact extractStridedSlice_apply ![512, 0] _ slices_S2560x2048_S2048x2048_512_0 (ix2 k a) (ix2 (⟨512 + k.val, by omega⟩ : Fin 2560) a) (fun d => match d with
    | ⟨0, _⟩ => by show 512 + k.val = 512 + k.val; omega
    | ⟨1, _⟩ => by show a.val = 0 + a.val; omega)

/-- Windows 9, 10, 11: the leak rates, the thresholds and the bias, each one row. -/
theorem iblk9_apply (c : Dev nD) (t : Fin cfg0.N) (a : Fin 2048) :
    iblk m c 9 t (ix2 (0 : Fin 1) a)
      = Cert.Cell.sigm ((m ((c : Thread nD τ).loc main_arg5) : S2048.Idx → EReal) (ix1 a)) := by
  unfold iblk
  rw [show V m c (Pipeline.arrRef spec0 9) = _ from V_v22 m c]
  have he : ((cfg0.win 9).blk t).view.emb (ix2 (0 : Fin 1) a) = (ix2 (0 : Fin 1) a : S1x2048.Idx) := by
    obtain ⟨-, -, -, -, -, -, -, -, -, -, ⟨e0, e1⟩, -⟩ := idx_facts t
    refine funext fun d => Fin.ext ?_
    match d with
    | ⟨0, _⟩ => show win0_9.index t (0 : Fin 2) * 1 + 1 * 0 = 0; omega
    | ⟨1, _⟩ => show win0_9.index t (1 : Fin 2) * 2048 + 1 * a.val = a.val; omega
  show shapeCast S1x2048 (leakRow (m ((c : Thread nD τ).loc main_arg5))) shapeCasts_S2048_S1x2048 (((cfg0.win 9).blk t).view.emb (ix2 (0 : Fin 1) a)) = _
  rw [he]
  exact (shapeCast_a_1a_apply _ shapeCasts_S2048_S1x2048 (0 : Fin 1) a).trans (leakRow_apply _ a)

theorem iblk10_apply (c : Dev nD) (t : Fin cfg0.N) (a : Fin 2048) :
    iblk m c 10 t (ix2 (0 : Fin 1) a)
      = Cert.Cell.softplus ((m ((c : Thread nD τ).loc main_arg6) : S2048.Idx → EReal) (ix1 a)) := by
  unfold iblk
  rw [show V m c (Pipeline.arrRef spec0 10) = _ from V_v24 m c]
  have he : ((cfg0.win 10).blk t).view.emb (ix2 (0 : Fin 1) a) = (ix2 (0 : Fin 1) a : S1x2048.Idx) := by
    obtain ⟨-, -, -, -, -, -, -, -, -, -, -, ⟨e0, e1⟩, -⟩ := idx_facts t
    refine funext fun d => Fin.ext ?_
    match d with
    | ⟨0, _⟩ => show win0_10.index t (0 : Fin 2) * 1 + 1 * 0 = 0; omega
    | ⟨1, _⟩ => show win0_10.index t (1 : Fin 2) * 2048 + 1 * a.val = a.val; omega
  show shapeCast S1x2048 (thrRow (m ((c : Thread nD τ).loc main_arg6))) shapeCasts_S2048_S1x2048 (((cfg0.win 10).blk t).view.emb (ix2 (0 : Fin 1) a)) = _
  rw [he]
  exact (shapeCast_a_1a_apply _ shapeCasts_S2048_S1x2048 (0 : Fin 1) a).trans (thrRow_apply _ a)

theorem iblk11_apply (c : Dev nD) (t : Fin cfg0.N) (a : Fin 2048) :
    iblk m c 11 t (ix2 (0 : Fin 1) a)
      = (m ((c : Thread nD τ).loc main_arg8) : S2048.Idx → EReal) (ix1 a) := by
  unfold iblk
  rw [show V m c (Pipeline.arrRef spec0 11) = _ from V_v25 m c]
  have he : ((cfg0.win 11).blk t).view.emb (ix2 (0 : Fin 1) a) = (ix2 (0 : Fin 1) a : S1x2048.Idx) := by
    obtain ⟨-, -, -, -, -, -, -, -, -, -, -, -, e0, e1⟩ := idx_facts t
    refine funext fun d => Fin.ext ?_
    match d with
    | ⟨0, _⟩ => show win0_11.index t (0 : Fin 2) * 1 + 1 * 0 = 0; omega
    | ⟨1, _⟩ => show win0_11.index t (1 : Fin 2) * 2048 + 1 * a.val = a.val; omega
  show shapeCast S1x2048 _ shapeCasts_S2048_S1x2048 (((cfg0.win 11).blk t).view.emb (ix2 (0 : Fin 1) a)) = _
  rw [he]
  exact shapeCast_a_1a_apply _ shapeCasts_S2048_S1x2048 (0 : Fin 1) a

end Cert.KernelIdeal.Hand

end
-- ==== Proof.BodyIsRow.lean ====
/-
  The kernel body's result, read at one entry of its 64 × 2048 block, is the recurrent cell's row function
  (`Cert.Cell.rowOut`) of the block's row.

  The body stores its result once, through the rectangle that is the whole block, so the block after the body is the
  stored value. That value is a term over the blocks the body loaded: products against the weight blocks (each a sum
  over the contraction index into a zero accumulator), σ applied entry by entry, tanh, three 1 × 2048 rows broadcast
  over the 64 rows, a comparison and a choice. On the extended reals a change of format is the identity and a shape
  cast to the same shape is the identity, so at entry (r, a) every pointwise operation reads its operands at (r, a),
  a broadcast row reads at (0, a), and a product of a 64 × K block with a K × 2048 block reads
  Σ_k left (r, k) · right (k, a). The second product in the semantic gate has the state block as its left operand,
  so the state is first read at every column of row r, and that reading is used under the 2048-term sum.
-/
import proofs.«144517_j88399016887038_1_alg».proof.Proof.Gen.KernelIdeal.Frame
import proofs.«144517_j88399016887038_1_alg».proof.Proof.CellSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## A block product read at an entry -/

/-- The two contractions of the body: 64 × 512 against 512 × 2048, and 64 × 2048 against 2048 × 2048, each over
    the left operand's columns and the right operand's rows. -/
abbrev D512 : DotDims S64x512 S512x2048 S64x2048 := dot_S64x512_S512x2048_S64x2048_1_0_0_1_n_n
abbrev D2048 : DotDims S64x2048 S2048x2048 S64x2048 := dot_S64x2048_S2048x2048_S64x2048_1_0_0_1_n_n

/-- The left operand's index at result entry `i` and contraction position `q` has `i`'s row … -/
theorem D512_lhs0 (i : S64x2048.Idx) (q : D512.contr.Idx) : (D512.lhsIdx i q 0).val = (i 0).val := by
  unfold DotDims.lhsIdx
  rw [dif_neg (show ¬(0 : Fin S64x512.rank) ∈ D512.lhsBatch by decide),
    dif_pos (show (0 : Fin S64x512.rank) ∈ D512.lhsNonContracting by decide)]
  rfl
/-- … and the contraction position as its column; -/
theorem D512_lhs1 (i : S64x2048.Idx) (q : D512.contr.Idx) : (D512.lhsIdx i q 1).val = (q ⟨0, by decide⟩).val :=
  D512.lhsIdx_val_of_single rfl i q
/-- the right operand's index has the contraction position as its row … -/
theorem D512_rhs0 (i : S64x2048.Idx) (q : D512.contr.Idx) : (D512.rhsIdx i q 0).val = (q ⟨0, by decide⟩).val :=
  D512.rhsIdx_val_of_single rfl i q
/-- … and `i`'s column. -/
theorem D512_rhs1 (i : S64x2048.Idx) (q : D512.contr.Idx) : (D512.rhsIdx i q 1).val = (i 1).val := by
  unfold DotDims.rhsIdx
  rw [dif_neg (show ¬(1 : Fin S512x2048.rank) ∈ D512.rhsBatch by decide),
    dif_pos (show (1 : Fin S512x2048.rank) ∈ D512.rhsNonContracting by decide)]
  rfl

/-- A 64 × 512 block times a 512 × 2048 block into the zero block, at entry (r, a): Σ_k left (r, k) · right (k, a). -/
theorem matmul512_apply (l : FVec Ideal S64x512 .bf16) (w : FVec Ideal S512x2048 .bf16) (r : Fin 64) (a : Fin 2048) :
    matmul D512 none l w (constant (F := Ideal) S64x2048 .f32 0x00000000#32) (ix2 r a)
      = ∑ k : Fin 512, l (ix2 r k) * w (ix2 k a) := by
  refine (Ideal.matmul_constant_zero_apply D512 none l w (ix2 r a)).trans ?_
  rw [← Equiv.sum_comp (contrEquiv1 D512 512 rfl rfl).symm]
  refine Finset.sum_congr rfl fun k _ => ?_
  have hk := contrEquiv1_symm_val D512 512 rfl rfl k
  have el : D512.lhsIdx (ix2 r a) ((contrEquiv1 D512 512 rfl rfl).symm k) = ix2 r k :=
    funext fun ax => Fin.ext (by
      match ax with
      | ⟨0, _⟩ => exact D512_lhs0 _ _
      | ⟨1, _⟩ => exact (D512_lhs1 _ _).trans hk)
  have er : D512.rhsIdx (ix2 r a) ((contrEquiv1 D512 512 rfl rfl).symm k) = ix2 k a :=
    funext fun ax => Fin.ext (by
      match ax with
      | ⟨0, _⟩ => exact (D512_rhs0 _ _).trans hk
      | ⟨1, _⟩ => exact D512_rhs1 _ _)
  rw [el, er]

theorem D2048_lhs0 (i : S64x2048.Idx) (q : D2048.contr.Idx) : (D2048.lhsIdx i q 0).val = (i 0).val := by
  unfold DotDims.lhsIdx
  rw [dif_neg (show ¬(0 : Fin S64x2048.rank) ∈ D2048.lhsBatch by decide),
    dif_pos (show (0 : Fin S64x2048.rank) ∈ D2048.lhsNonContracting by decide)]
  rfl
theorem D2048_lhs1 (i : S64x2048.Idx) (q : D2048.contr.Idx) : (D2048.lhsIdx i q 1).val = (q ⟨0, by decide⟩).val :=
  D2048.lhsIdx_val_of_single rfl i q
theorem D2048_rhs0 (i : S64x2048.Idx) (q : D2048.contr.Idx) : (D2048.rhsIdx i q 0).val = (q ⟨0, by decide⟩).val :=
  D2048.rhsIdx_val_of_single rfl i q
theorem D2048_rhs1 (i : S64x2048.Idx) (q : D2048.contr.Idx) : (D2048.rhsIdx i q 1).val = (i 1).val := by
  unfold DotDims.rhsIdx
  rw [dif_neg (show ¬(1 : Fin S2048x2048.rank) ∈ D2048.rhsBatch by decide),
    dif_pos (show (1 : Fin S2048x2048.rank) ∈ D2048.rhsNonContracting by decide)]
  rfl

/-- A 64 × 2048 block times a 2048 × 2048 block into the zero block, at entry (r, a): Σ_k left (r, k) · right (k, a). -/
theorem matmul2048_apply (l : FVec Ideal S64x2048 .bf16) (w : FVec Ideal S2048x2048 .bf16) (r : Fin 64) (a : Fin 2048) :
    matmul D2048 none l w (constant (F := Ideal) S64x2048 .f32 0x00000000#32) (ix2 r a)
      = ∑ k : Fin 2048, l (ix2 r k) * w (ix2 k a) := by
  refine (Ideal.matmul_constant_zero_apply D2048 none l w (ix2 r a)).trans ?_
  rw [← Equiv.sum_comp (contrEquiv1 D2048 2048 rfl rfl).symm]
  refine Finset.sum_congr rfl fun k _ => ?_
  have hk := contrEquiv1_symm_val D2048 2048 rfl rfl k
  have el : D2048.lhsIdx (ix2 r a) ((contrEquiv1 D2048 2048 rfl rfl).symm k) = ix2 r k :=
    funext fun ax => Fin.ext (by
      match ax with
      | ⟨0, _⟩ => exact D2048_lhs0 _ _
      | ⟨1, _⟩ => exact (D2048_lhs1 _ _).trans hk)
  have er : D2048.rhsIdx (ix2 r a) ((contrEquiv1 D2048 2048 rfl rfl).symm k) = ix2 k a :=
    funext fun ax => Fin.ext (by
      match ax with
      | ⟨0, _⟩ => exact (D2048_rhs0 _ _).trans hk
      | ⟨1, _⟩ => exact D2048_rhs1 _ _)
  rw [el, er]

/-! ## The pieces of the body's value at an entry -/

section Pieces
variable (r : Fin 64) (a : Fin 2048)

/-- The zero block a product accumulates into. -/
abbrev zeroBlock : FVec Ideal S64x2048 .f32 := constant (F := Ideal) S64x2048 .f32 0x00000000#32

/-- σ and tanh of a block read entry by entry. -/
theorem logistic_apply (x : FVec Ideal S64x2048 .f32) (i : S64x2048.Idx) : logistic x i = FloatOps.logistic (x i) := rfl
theorem tanh_apply (x : FVec Ideal S64x2048 .f32) (i : S64x2048.Idx) : tanh x i = Ideal.tanh (x i) := rfl

/-- Rounding the inputs' block to the products' operand format changes no entry. -/
theorem pay2_eq (v0 : FVec Ideal S64x512 .f32) : k0_pay2 (F := Ideal) v0 = v0 := rfl

/-- A 1 × 2048 row cast to its own shape is itself. -/
theorem pay4_eq (v : FVec Ideal S1x2048 .f32) : k0_pay4 (F := Ideal) v = v := shapeCast_self v _
theorem pay5_eq (v : FVec Ideal S1x2048 .f32) : k0_pay5 (F := Ideal) v = v := shapeCast_self v _

/-- A 1 × 2048 row broadcast over the 64 rows reads, at (r, a), the row at a. -/
theorem row_apply (v : FVec Ideal S1x2048 .f32) :
    broadcastTo S64x2048 v broadcasts_S1x2048_S64x2048 (ix2 r a) = v (ix2 0 a) :=
  broadcastTo_1b_ab_apply v _ r a

/-- A 64 × 512 block against a 512 × 2048 weight block (cast to its own shape), at (r, a): Σ_k left (r, k) · w (k, a). -/
theorem lw_apply (l : FVec Ideal S64x512 .bf16) (w : FVec Ideal S512x2048 .bf16) :
    matmul D512 none l (shapeCast S512x2048 w shapeCasts_S512x2048_S512x2048) zeroBlock (ix2 r a)
      = ∑ k : Fin 512, l (ix2 r k) * w (ix2 k a) := by
  rw [shapeCast_self]
  exact matmul512_apply l w r a

/-- The inputs' block against a 512 × 2048 weight block, at (r, a): Σ_k x (r, k) · w (k, a). -/
theorem xw_apply (v0 : FVec Ideal S64x512 .f32) (w : FVec Ideal S512x2048 .bf16) :
    matmul D512 none (k0_pay2 v0) (shapeCast S512x2048 w shapeCasts_S512x2048_S512x2048) zeroBlock (ix2 r a)
      = ∑ k : Fin 512, v0 (ix2 r k) * w (ix2 k a) :=
  lw_apply r a (k0_pay2 v0) w

/-- A 64 × 2048 block, rounded to the products' operand format, against a 2048 × 2048 weight block, at (r, a), given the
    block's row r as a function `st` of the column: Σ_k st k · w (k, a). -/
theorem sw_apply (v : FVec Ideal S64x2048 .f32) (w : FVec Ideal S2048x2048 .bf16) (st : Fin 2048 → EReal)
    (hst : ∀ k, v (ix2 r k) = st k) :
    matmul D2048 none (truncf .bf16 v bitsLt_bf16_f32) (shapeCast S2048x2048 w shapeCasts_S2048x2048_S2048x2048) zeroBlock (ix2 r a)
      = ∑ k : Fin 2048, st k * w (ix2 k a) := by
  rw [shapeCast_self]
  refine (matmul2048_apply (truncf .bf16 v bitsLt_bf16_f32) w r a).trans ?_
  exact Finset.sum_congr rfl fun k _ => congrArg (· * w (ix2 k a)) (hst k)

/-- A gate's block at (r, a): σ of the inputs' row r against column a of the gate's weights. -/
theorem gate_apply (v0 : FVec Ideal S64x512 .f32) (w : FVec Ideal S512x2048 .bf16) :
    logistic (matmul D512 none (k0_pay2 v0) (shapeCast S512x2048 w shapeCasts_S512x2048_S512x2048) zeroBlock) (ix2 r a)
      = Cert.Cell.rowGate (fun k => v0 (ix2 r k)) (fun k a => w (ix2 k a)) a := by
  rw [logistic_apply, xw_apply, Cert.Cell.logistic_eq_sigm]
  rfl

/-- The output gate's block. -/
theorem pay3_apply (v0 : FVec Ideal S64x512 .f32) (w : FVec Ideal S512x2048 .bf16) :
    k0_pay3 (F := Ideal) v0 w (ix2 r a) = Cert.Cell.rowGate (fun k => v0 (ix2 r k)) (fun k a => w (ix2 k a)) a :=
  gate_apply r a v0 w

/-- The leak rates' row over the block. -/
theorem pay8_apply (lk : FVec Ideal S1x2048 .f32) : k0_pay8 (F := Ideal) lk (ix2 r a) = lk (ix2 0 a) := by
  unfold k0_pay8
  rw [pay4_eq]
  exact row_apply r a lk

/-- The retained part of the previous state: (1 − leak) · (forget gate · previous state). -/
theorem pay6_apply (v0 : FVec Ideal S64x512 .f32) (v2 : FVec Ideal S64x2048 .f32) (w : FVec Ideal S512x2048 .bf16)
    (lk : FVec Ideal S1x2048 .f32) :
    k0_pay6 (F := Ideal) v0 v2 w lk (ix2 r a)
      = (Cert.Cell.one - lk (ix2 0 a))
          * (Cert.Cell.rowGate (fun k => v0 (ix2 r k)) (fun k a => w (ix2 k a)) a * v2 (ix2 r a)) := by
  unfold k0_pay6
  simp only [mulf_apply]
  rw [gate_apply, row_apply, pay4_eq]
  rfl

/-- The candidate: tanh of the input gate times the drive. -/
theorem pay7_apply (v0 : FVec Ideal S64x512 .f32) (v2 : FVec Ideal S64x2048 .f32) (winT : FVec Ideal S512x2048 .bf16)
    (wres : FVec Ideal S2048x2048 .bf16) (wi : FVec Ideal S512x2048 .bf16) :
    k0_pay7 (F := Ideal) v0 v2 winT wres wi (ix2 r a)
      = Ideal.tanh (Cert.Cell.rowGate (fun k => v0 (ix2 r k)) (fun k a => wi (ix2 k a)) a
          * Cert.Cell.rowDrive (fun k => v0 (ix2 r k)) (fun k => v2 (ix2 r k)) (fun k a => winT (ix2 k a))
              (fun k a => wres (ix2 k a)) a) := by
  unfold k0_pay7
  simp only [tanh_apply, mulf_apply, addf_apply]
  rw [gate_apply, xw_apply, sw_apply r a v2 wres (fun k => v2 (ix2 r k)) (fun _ => rfl)]
  rfl

end Pieces

/-! ## The state block, the stored value, the block after the body -/

/-- Above its threshold a unit spikes and is lowered by the threshold. -/
def spike (g t : EReal) : EReal :=
  Scalar.select (FloatOps.cmpf (F := Ideal) (φ := .f32) .ogt g t) (g - t) g

/-- The body's state block — output gate · (retained part + leak · candidate) — at (r, a) is the cell's state of
    row r at unit a. -/
theorem state_apply (x0 : FVec Ideal S64x512 .f32) (x1 : FVec Ideal S64x2048 .f32) (x2 : FVec Ideal S512x2048 .bf16)
    (x3 : FVec Ideal S2048x2048 .bf16) (x4 x5 x6 : FVec Ideal S512x2048 .bf16) (x9 : FVec Ideal S1x2048 .f32)
    (r : Fin 64) (a : Fin 2048) :
    mulf (k0_pay3 (F := Ideal) x0 x6) (addf (k0_pay6 x0 x1 x5 x9) (mulf (k0_pay8 x9) (k0_pay7 x0 x1 x2 x3 x4))) (ix2 r a)
      = Cert.Cell.rowState (fun k => x0 (ix2 r k)) (fun k => x1 (ix2 r k)) (fun k a => x2 (ix2 k a))
          (fun k a => x4 (ix2 k a)) (fun k a => x5 (ix2 k a)) (fun k a => x6 (ix2 k a)) (fun k a => x3 (ix2 k a))
          (fun a => x9 (ix2 0 a)) a := by
  simp only [mulf_apply, addf_apply]
  rw [pay3_apply, pay6_apply, pay8_apply, pay7_apply]
  rfl

/-- The stored value at (r, a), given the state block's row r as a function `st` of the column: the state at a
    times σ of (inputs' row against the first weight block + state's row against the second + bias), spiking
    against the threshold. -/
theorem pay1_apply (v1 : FVec Ideal S64x512 .bf16) (v21 v30 v33 v34 : FVec Ideal S64x2048 .f32)
    (v25 : FVec Ideal S1x2048 .f32) (v39 : FVec Ideal S512x2048 .bf16) (v42 : FVec Ideal S2048x2048 .bf16)
    (v46 : FVec Ideal S1x2048 .f32) (r : Fin 64) (a : Fin 2048) (st : Fin 2048 → EReal)
    (hst : ∀ k, mulf v21 (addf v30 (mulf v34 v33)) (ix2 r k) = st k) :
    k0_pay1 (F := Ideal) v1 v21 v25 v30 v33 v34 v39 v42 v46 (ix2 r a)
      = spike (st a * Cert.Cell.sigm ((∑ k : Fin 512, v1 (ix2 r k) * v39 (ix2 k a))
            + (∑ k : Fin 2048, st k * v42 (ix2 k a)) + v46 (ix2 0 a)))
          (v25 (ix2 0 a)) := by
  unfold k0_pay1
  generalize mulf v21 (addf v30 (mulf v34 v33)) = V at hst ⊢
  simp only [select_apply, cmpf_apply, subf_apply, mulf_apply, addf_apply, logistic_apply]
  rw [lw_apply, sw_apply r a V v42 st hst, shapeCast_self, row_apply, row_apply, hst a, Cert.Cell.logistic_eq_sigm]
  rfl

/-- The offsets of the rectangles the body loads and stores through are zero on both axes. -/
theorem hz : (![0, 0] : Fin 2 → Nat) = fun _ => 0 := funext fun a => by fin_cases a <;> rfl

/-- THE BLOCK AFTER THE BODY at (r, a) is the cell's row function of row r of the inputs' and previous state's
    blocks, the weight blocks and the three rows, at unit a. -/
theorem out_apply (x0 : Vec Ideal S64x512 .f32) (x1 : Vec Ideal S64x2048 .f32) (x2 : Vec Ideal S512x2048 .bf16)
    (x3 : Vec Ideal S2048x2048 .bf16) (x4 x5 x6 x7 : Vec Ideal S512x2048 .bf16) (x8 : Vec Ideal S2048x2048 .bf16)
    (x9 x10 x11 : Vec Ideal S1x2048 .f32) (r : Fin 64) (a : Fin 2048) :
    Cert.KernelIdeal.Gen.out0_12 x0 x1 x2 x3 x4 x5 x6 x7 x8 x9 x10 x11 (ix2 r a)
      = Cert.Cell.rowOut (fun k => x0 (ix2 r k)) (fun k => x1 (ix2 r k)) (fun k a => x2 (ix2 k a))
          (fun k a => x4 (ix2 k a)) (fun k a => x5 (ix2 k a)) (fun k a => x6 (ix2 k a)) (fun k a => x7 (ix2 k a))
          (fun k a => x3 (ix2 k a)) (fun k a => x8 (ix2 k a)) (fun a => x9 (ix2 0 a)) (fun a => x10 (ix2 0 a))
          (fun a => x11 (ix2 0 a)) a := by
  unfold out0_12
  rw [View.canon_unit_zero hz]
  simp only [View.ld_unit_zero (S := S64x512) hz, View.ld_unit_zero (S := S64x2048) hz,
    View.ld_unit_zero (S := S512x2048) hz, View.ld_unit_zero (S := S2048x2048) hz,
    View.ld_unit_zero (S := S1x2048) hz]
  refine (pay1_apply (k0_pay2 x0) (k0_pay3 x0 x6) (k0_pay6 x0 x1 x5 x9) (k0_pay7 x0 x1 x2 x3 x4) (k0_pay8 x9)
    (k0_pay5 x10) x7 x8 x11 r a
    (Cert.Cell.rowState (fun k => x0 (ix2 r k)) (fun k => x1 (ix2 r k)) (fun k a => x2 (ix2 k a))
      (fun k a => x4 (ix2 k a)) (fun k a => x5 (ix2 k a)) (fun k a => x6 (ix2 k a)) (fun k a => x3 (ix2 k a))
      (fun a => x9 (ix2 0 a)))
    (fun k => state_apply x0 x1 x2 x3 x4 x5 x6 x9 r k)).trans ?_
  rw [pay5_eq]
  rfl

end Cert.KernelIdeal.Hand

end
-- ==== Proof.KernelValue.lean ====
/-
  The kernel's result array is the cell of the argument arrays.

  Grid point `t` writes back the 64 × 2048 block of rows `64 t … 64 t + 63`. Entry `(r, a)` of what it writes is the
  body's result at `(r, a)`, which is the cell's row function of row `r` of the point's input blocks (the body read at
  an index); those rows are rows `64 t + r` of the inputs and of the previous state, and the resident blocks are the
  re-laid weights (the windows read at an index). So what point `t` writes back is block `t` of the cell's result
  array `G`. Row `i` of the array lies in the block of point `i / 64`, so the 64 blocks cover the array and it ends
  holding `G`. The one host operation after the region that touches it pads it by nothing on both axes, so the padded
  array reads its operand at the same index, and the program's result is `G` of the argument arrays.
-/
import proofs.«144517_j88399016887038_1_alg».proof.Proof.Gen.KernelIdeal.Frame
import proofs.«144517_j88399016887038_1_alg».proof.Proof.CellSpec
import proofs.«144517_j88399016887038_1_alg».proof.Proof.EntryBlocks
import proofs.«144517_j88399016887038_1_alg».proof.Proof.BodyIsRow
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The cell's result array of the argument arrays as launched on core `c`. -/
def result (c : Dev nD) : S4096x2048.Idx → EReal :=
  Cert.Cell.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point `t` writes back is block `t` of the cell's result array. -/
theorem flushed_eq (c : Dev nD) (t : Fin cfg0.N) (_hf : (cfg0.win 12).flush t = true) :
    (dats m 0 c).flushed 12 t = ((cfg0.win 12).blk t).view.read (Elt Ideal) (result m c) := by
  show (cfg0.win 12).cut (grid0.coords t) ((dats m 0 c).after 12 t) = _
  rw [after0_12]
  funext j
  obtain ⟨r, a, rfl⟩ : ∃ (r : Fin 64) (a : Fin 2048), j = ix2 r a := ⟨j 0, j 1, eq_ix2 j⟩
  have he : ((cfg0.win 12).blk t).view.emb (ix2 r a)
      = (ix2 (⟨64 * t.val + r.val, row_lt t r⟩ : Fin 4096) a : S4096x2048.Idx) := by
    obtain ⟨-, -, ⟨e0, e1⟩, -⟩ := idx_facts t
    refine funext fun d => Fin.ext ?_
    match d with
    | ⟨0, _⟩ => show win0_12.index t (0 : Fin 2) * 64 + 1 * r.val = 64 * t.val + r.val; omega
    | ⟨1, _⟩ => show win0_12.index t (1 : Fin 2) * 2048 + 1 * a.val = a.val; omega
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r a)
      = result m c (((cfg0.win 12).blk t).view.emb (ix2 r a))
  rw [he]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r a).trans ?_
  show _ = Cert.Cell.out _ _ _ _ _ _ _ _ _ (⟨64 * t.val + r.val, row_lt t r⟩ : Fin 4096) a
  unfold Cert.Cell.out
  simp only [iblk0_apply, iblk1_apply, iblk2_apply, iblk3_apply, iblk4_apply, iblk5_apply, iblk6_apply, iblk7_apply,
    iblk8_apply, iblk9_apply, iblk10_apply, iblk11_apply]

/-- An index of the array is in point `t`'s block iff each coordinate is in the block's range on its axis. -/
theorem mem_blk (t : Fin cfg0.N) (i : S4096x2048.Idx) :
    i ∈ ((cfg0.win 12).blk t).view.set ↔ ∀ a : Fin 2, win0_12.index t a * S64x2048.size a ≤ (i a).val
      ∧ (i a).val < win0_12.index t a * S64x2048.size a + S64x2048.size a := by
  show i ∈ ((View.whole main_v26).slice (win0_12.rect t)).set ↔ _
  rw [View.set_slice_whole, Rect.mem_set_unit]
  exact Iff.rfl

/-- The 64 blocks cover the array (row `i` is in the block of point `i / 64`), so it ends holding the cell's result. -/
theorem final (c : Dev nD) : (dats m 0 c).arrAt 12 cfg0.N = result m c :=
  (dats m 0 c).arrAt_eq_of_cover 12 (result m c) (flushed_eq m c) fun i => by
    have hi0 : (i 0).val < 4096 := (i 0).isLt
    have hi1 : (i 1).val < 2048 := (i 1).isLt
    have hN : cfg0.N = 64 := N_0
    have hlt : (i 0).val / 64 < cfg0.N := by omega
    obtain ⟨-, -, ⟨e0, e1⟩, -⟩ := idx_facts ⟨(i 0).val / 64, hlt⟩
    have e0' : win0_12.index ⟨(i 0).val / 64, hlt⟩ (0 : Fin 2) = (i 0).val / 64 := e0
    refine ⟨⟨(i 0).val / 64, hlt⟩, flush0_12 _, ?_⟩
    rw [mem_blk]
    intro a
    match a with
    | ⟨0, _⟩ =>
      show win0_12.index ⟨(i 0).val / 64, hlt⟩ (0 : Fin 2) * 64 ≤ (i 0).val
        ∧ (i 0).val < win0_12.index ⟨(i 0).val / 64, hlt⟩ (0 : Fin 2) * 64 + 64
      omega
    | ⟨1, _⟩ =>
      show win0_12.index ⟨(i 0).val / 64, hlt⟩ (1 : Fin 2) * 2048 ≤ (i 1).val
        ∧ (i 1).val < win0_12.index ⟨(i 0).val / 64, hlt⟩ (1 : Fin 2) * 2048 + 2048
      omega

/-- After the region the host pads the array by nothing on both axes: the program's result buffer holds the cell's
    result. -/
theorem tail_result (c : Dev nD) :
    (Pipeline.afterTail₀ cfgs (dats m) 0 (V0 m) [hostOps1, hostOps1_1] c main_v27 : S4096x2048.Idx → EReal) = result m c := by
  unfold Pipeline.afterTail₀
  simp only [Gen.hostOps1, Gen.hostOps1_1, List.flatten_cons, List.flatten_nil, List.append_nil, List.cons_append, List.nil_append]
  after_results
  show pad S4096x2048 ![0, 0] ![0, 0] ![0, 0]
      (Pipeline.withArrays spec0 c (V0 m c) (fun w => (dats m 0 c).arrAt w cfg0.N) (Proc.devRef .tc main_v26))
      (sitofp (F := Ideal) .f32 (constantI S_ 32 0#32)) pads_S4096x2048_S4096x2048_000_000 h_S_ = _
  rw [show Pipeline.withArrays spec0 c (V0 m c) (fun w => (dats m 0 c).arrAt w cfg0.N) (Proc.devRef .tc main_v26)
      = (dats m 0 c).arrAt 12 cfg0.N from Pipeline.withArrays_arr spec0 winFacts0.arr_inj c _ _ 12, final m c]
  funext i
  exact pad_apply_of_inside _ _ _ _ _ pads_S4096x2048_S4096x2048_000_000 h_S_ i i (fun d => by
    match d with
    | ⟨0, _⟩ => show (i 0).val = 0 + (i 0).val * (0 + 1); omega
    | ⟨1, _⟩ => show (i 1).val = 0 + (i 1).val * (0 + 1); omega)

/-- The run, read: every weakly fair execution terminates with the result buffer at the cell's result of the argument
    arrays and the argument arrays unchanged. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v27 (Pipeline.mem_restRefs_of main_v27 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.RefIsCell.lean ====
/-
  The reference program computes the recurrent cell `Cert.Cell.G`.

  Read entry by entry, the reference is the cell's formula: the leak rate is σ of its parameter and the threshold is the
  softplus of its parameter; the three gates are σ of the input row against the three row blocks of the gate weights;
  the drive is the input row through the transposed input weights plus the previous state's row through the
  recurrent weights; the state is the output gate times the leaky mix of the forgotten previous state and the tanh
  of the gated drive. The semantic gate's pre-activation is one contraction of length 2560 of the row
  [inputs, state] against the semantic kernel: split at position 512, its first 512 terms read the inputs and its
  last 2048 terms read the state, which is the cell's two sums. The rest (σ, the product, the comparison with the
  threshold, the choice between the lowered and the unchanged value) is entry by entry, and the final padding adds
  no entries, so it reads its operand at the same index.
-/
import proofs.«144517_j88399016887038_1_alg».proof.Proof.Gen.ReferenceIdeal.Read
import proofs.«144517_j88399016887038_1_alg».proof.Proof.CellSpec
import Idealize.ShloMosaic.Lib.KernelVsHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The per-unit parameters -/

/-- The leak rate of a unit is σ of its parameter. -/
theorem leak_apply (x5 : (⟨S2048, .f32⟩ : BufTy).Contents (Elt Ideal)) (j : S2048.Idx) :
    val_main_v5 (F := Ideal) x5 j = Cert.Cell.sigm (x5 j) := by
  simp only [val_main_v5_apply, val_main_v4_apply, val_main_cst_0_apply, val_main_v3_apply, val_main_v2_apply,
    val_main_cst_apply, val_main_v1_apply, val_main_v0_apply]
  rfl

/-- The threshold of a unit is the softplus of its parameter. -/
theorem threshold_apply (x6 : (⟨S2048, .f32⟩ : BufTy).Contents (Elt Ideal)) (j : S2048.Idx) :
    val_main_v6 (F := Ideal) x6 j = Cert.Cell.softplus (x6 j) := by
  simp only [val_main_v6_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

/-! ## The gates and the drive -/

/-- Entry (b, c) of the three gates side by side: σ of row b of the inputs against row c of the gate weights. -/
theorem gate_apply (x0 : (⟨S4096x512, .f32⟩ : BufTy).Contents (Elt Ideal))
    (x4 : (⟨S6144x512, .f32⟩ : BufTy).Contents (Elt Ideal)) (b : Fin 4096) (c : Fin 6144) :
    val_main_v17 (F := Ideal) x0 x4 (ix2 b c) = Cert.Cell.sigm (∑ k : Fin 512, x0 (ix2 b k) * x4 (ix2 c k)) := by
  have e1 : ∀ k : Fin 512, lidx_main_v11 (ix2 b c) k = ix2 b k := fun k =>
    funext fun d => Fin.ext (by match d with | ⟨0, _⟩ => rfl | ⟨1, _⟩ => rfl)
  have e2 : ∀ k : Fin 512, idx_main_v10 (ridx_main_v11 (ix2 b c) k) = ix2 c k := fun k =>
    funext fun d => Fin.ext (by match d with | ⟨0, _⟩ => rfl | ⟨1, _⟩ => rfl)
  rw [val_main_v17_apply, val_main_v16_apply, val_main_cst_2_apply, val_main_v15_apply, val_main_v14_apply,
    val_main_cst_1_apply, val_main_v13_apply, val_main_v12_apply, val_main_v11_apply]
  simp only [val_main_v10_apply, e1, e2]
  rfl

/-- Entry (b, a) of the drive: row b of the inputs through the transposed input weights plus row b of the previous
    state through the recurrent weights. -/
theorem drive_apply (x0 : (⟨S4096x512, .f32⟩ : BufTy).Contents (Elt Ideal))
    (x1 : (⟨S4096x2048, .f32⟩ : BufTy).Contents (Elt Ideal)) (x2 : (⟨S2048x2048, .f32⟩ : BufTy).Contents (Elt Ideal))
    (x3 : (⟨S2048x512, .f32⟩ : BufTy).Contents (Elt Ideal)) (b : Fin 4096) (a : Fin 2048) :
    val_main_v27 (F := Ideal) x0 x1 x2 x3 (ix2 b a)
      = (∑ k : Fin 512, x0 (ix2 b k) * x3 (ix2 a k)) + ∑ k : Fin 2048, x1 (ix2 b k) * x2 (ix2 k a) := by
  have e1 : ∀ k : Fin 512, lidx_main_v8 (ix2 b a) k = ix2 b k := fun k =>
    funext fun d => Fin.ext (by match d with | ⟨0, _⟩ => rfl | ⟨1, _⟩ => rfl)
  have e2 : ∀ k : Fin 512, idx_main_v7 (ridx_main_v8 (ix2 b a) k) = ix2 a k := fun k =>
    funext fun d => Fin.ext (by match d with | ⟨0, _⟩ => rfl | ⟨1, _⟩ => rfl)
  have e3 : ∀ k : Fin 2048, lidx_main_v9 (ix2 b a) k = ix2 b k := fun k =>
    funext fun d => Fin.ext (by match d with | ⟨0, _⟩ => rfl | ⟨1, _⟩ => rfl)
  have e4 : ∀ k : Fin 2048, ridx_main_v9 (ix2 b a) k = ix2 k a := fun k =>
    funext fun d => Fin.ext (by match d with | ⟨0, _⟩ => rfl | ⟨1, _⟩ => rfl)
  rw [val_main_v27_apply, val_main_v8_apply, val_main_v9_apply]
  simp only [val_main_v7_apply, e1, e2, e3, e4]
  rfl

/-! ## The state before the semantic gate -/

/-- Entry (b, a) of the state before the semantic gate is the cell's state of unit a on row b: the output gate
    times the leaky mix of the forgotten previous state and the tanh of the gated drive. The three gates of unit a
    are columns a, 2048 + a and 4096 + a of the gates side by side. -/
theorem state_apply (x0 : (⟨S4096x512, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x512, .f32⟩ : BufTy).Contents (Elt Ideal))
    (x4 : (⟨S6144x512, .f32⟩ : BufTy).Contents (Elt Ideal)) (x5 : (⟨S2048, .f32⟩ : BufTy).Contents (Elt Ideal)) (b : Fin 4096) (a : Fin 2048) :
    val_main_v34 (F := Ideal) x0 x1 x2 x3 x4 x5 (ix2 b a)
      = Cert.Cell.rowState (fun k => x0 (ix2 b k)) (fun k => x1 (ix2 b k))
          (fun k a => x3 (ix2 a k))
          (fun k a => x4 (ix2 (⟨a.val, by omega⟩ : Fin 6144) k))
          (fun k a => x4 (ix2 (⟨2048 + a.val, by omega⟩ : Fin 6144) k))
          (fun k a => x4 (ix2 (⟨4096 + a.val, by omega⟩ : Fin 6144) k))
          (fun k a => x2 (ix2 k a))
          (fun a => Cert.Cell.sigm (x5 (ix1 a))) a := by
  have i18 : idx_main_v18 (ix2 b a) = ix2 b (⟨a.val, by omega⟩ : Fin 6144) := funext fun d => Fin.ext (by match d with | ⟨0, _⟩ => rfl | ⟨1, _⟩ => rfl)
  have i19 : idx_main_v19 (ix2 b a) = ix2 b (⟨2048 + a.val, by omega⟩ : Fin 6144) := funext fun d => Fin.ext (by match d with | ⟨0, _⟩ => rfl | ⟨1, _⟩ => rfl)
  have i20 : idx_main_v20 (ix2 b a) = ix2 b (⟨4096 + a.val, by omega⟩ : Fin 6144) := funext fun d => Fin.ext (by match d with | ⟨0, _⟩ => rfl | ⟨1, _⟩ => rfl)
  have i25 : idx_main_v24 (idx_main_v25 (ix2 b a)) = ix1 a := funext fun d => Fin.ext (by match d with | ⟨0, _⟩ => rfl)
  have i31 : idx_main_v30 (idx_main_v31 (ix2 b a)) = ix1 a := funext fun d => Fin.ext (by match d with | ⟨0, _⟩ => rfl)
  simp only [val_main_v34_apply, val_main_v20_apply, i20, val_main_v33_apply, val_main_v26_apply, val_main_v25_apply,
    val_main_v24_apply, i25, val_main_v22_apply, val_main_v21_apply, val_main_cst_3_apply, val_main_v23_apply,
    val_main_v19_apply, i19, val_main_v32_apply, val_main_v31_apply, val_main_v30_apply, i31, leak_apply,
    val_main_v29_apply, val_main_v28_apply, val_main_v18_apply, i18, gate_apply, drive_apply]
  rfl

/-! ## The row [inputs, state] and the semantic gate's pre-activation -/

/-- The first 512 entries of row b of [inputs, state] are row b of the inputs. -/
theorem row_left (x0 : (⟨S4096x512, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x512, .f32⟩ : BufTy).Contents (Elt Ideal))
    (x4 : (⟨S6144x512, .f32⟩ : BufTy).Contents (Elt Ideal)) (x5 : (⟨S2048, .f32⟩ : BufTy).Contents (Elt Ideal)) (b : Fin 4096) (k : Fin 512) :
    val_main_v35 (F := Ideal) x0 x1 x2 x3 x4 x5 (ix2 b (⟨k.val, by omega⟩ : Fin 2560)) = x0 (ix2 b k) := by
  unfold val_main_v35
  exact concatenate_pair_apply_left _ x0 _ concatenates_S4096x512_S4096x2048_S4096x2560_d1 _ rfl (ix2 b k)
    (fun d => by match d with | ⟨0, _⟩ => rfl | ⟨1, _⟩ => rfl)

/-- The last 2048 entries of row b of [inputs, state] are row b of the state. -/
theorem row_right (x0 : (⟨S4096x512, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x512, .f32⟩ : BufTy).Contents (Elt Ideal))
    (x4 : (⟨S6144x512, .f32⟩ : BufTy).Contents (Elt Ideal)) (x5 : (⟨S2048, .f32⟩ : BufTy).Contents (Elt Ideal)) (b : Fin 4096) (k : Fin 2048) :
    val_main_v35 (F := Ideal) x0 x1 x2 x3 x4 x5 (ix2 b (⟨512 + k.val, by omega⟩ : Fin 2560))
      = val_main_v34 (F := Ideal) x0 x1 x2 x3 x4 x5 (ix2 b k) := by
  unfold val_main_v35
  exact concatenate_pair_apply_right _ x0 _ concatenates_S4096x512_S4096x2048_S4096x2560_d1 _ rfl rfl (ix2 b k)
    (fun d => by
      match d with
      | ⟨0, _⟩ => intro _; rfl
      | ⟨1, _⟩ => intro h; exact (h rfl).elim)
    (by show k.val + 512 = 512 + k.val; omega)

/-- Entry (b, a) of the contraction of [inputs, state] against the semantic kernel: the sum over its first 512
    rows against row b of the inputs plus the sum over its last 2048 rows against row b of the state. -/
theorem pre_apply (x0 : (⟨S4096x512, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x512, .f32⟩ : BufTy).Contents (Elt Ideal))
    (x4 : (⟨S6144x512, .f32⟩ : BufTy).Contents (Elt Ideal)) (x5 : (⟨S2048, .f32⟩ : BufTy).Contents (Elt Ideal))
    (x7 : (⟨S2560x2048, .f32⟩ : BufTy).Contents (Elt Ideal)) (b : Fin 4096) (a : Fin 2048) :
    val_main_v36 (F := Ideal) x0 x1 x2 x3 x4 x5 x7 (ix2 b a)
      = (∑ k : Fin 512, x0 (ix2 b k) * x7 (ix2 (⟨k.val, by omega⟩ : Fin 2560) a))
        + ∑ k : Fin 2048, Cert.Cell.rowState (fun k => x0 (ix2 b k)) (fun k => x1 (ix2 b k))
          (fun k a => x3 (ix2 a k))
          (fun k a => x4 (ix2 (⟨a.val, by omega⟩ : Fin 6144) k))
          (fun k a => x4 (ix2 (⟨2048 + a.val, by omega⟩ : Fin 6144) k))
          (fun k a => x4 (ix2 (⟨4096 + a.val, by omega⟩ : Fin 6144) k))
          (fun k a => x2 (ix2 k a))
          (fun a => Cert.Cell.sigm (x5 (ix1 a))) k
            * x7 (ix2 (⟨512 + k.val, by omega⟩ : Fin 2560) a) := by
  have el : ∀ k : Fin 2560, lidx_main_v36 (ix2 b a) k = ix2 b k := fun k => funext fun d => Fin.ext (by match d with | ⟨0, _⟩ => rfl | ⟨1, _⟩ => rfl)
  have er : ∀ k : Fin 2560, ridx_main_v36 (ix2 b a) k = ix2 k a := fun k => funext fun d => Fin.ext (by match d with | ⟨0, _⟩ => rfl | ⟨1, _⟩ => rfl)
  rw [val_main_v36_apply, Cert.Cell.sum_split]
  simp only [el, er, row_left, row_right, state_apply]

/-! ## The semantic gate, the threshold and the result -/

/-- Entry (b, a) of the state after the semantic gate: the state times σ of the pre-activation with the bias of
    unit a added. -/
theorem gated_apply (x0 : (⟨S4096x512, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x512, .f32⟩ : BufTy).Contents (Elt Ideal))
    (x4 : (⟨S6144x512, .f32⟩ : BufTy).Contents (Elt Ideal)) (x5 : (⟨S2048, .f32⟩ : BufTy).Contents (Elt Ideal))
    (x7 : (⟨S2560x2048, .f32⟩ : BufTy).Contents (Elt Ideal)) (x8 : (⟨S2048, .f32⟩ : BufTy).Contents (Elt Ideal)) (b : Fin 4096) (a : Fin 2048) :
    val_main_v46 (F := Ideal) x0 x1 x2 x3 x4 x5 x7 x8 (ix2 b a)
      = Cert.Cell.rowGated (fun k => x0 (ix2 b k)) (fun k => x1 (ix2 b k))
          (fun k a => x3 (ix2 a k))
          (fun k a => x4 (ix2 (⟨a.val, by omega⟩ : Fin 6144) k))
          (fun k a => x4 (ix2 (⟨2048 + a.val, by omega⟩ : Fin 6144) k))
          (fun k a => x4 (ix2 (⟨4096 + a.val, by omega⟩ : Fin 6144) k))
          (fun k a => x7 (ix2 (⟨k.val, by omega⟩ : Fin 2560) a))
          (fun k a => x2 (ix2 k a))
          (fun k a => x7 (ix2 (⟨512 + k.val, by omega⟩ : Fin 2560) a))
          (fun a => Cert.Cell.sigm (x5 (ix1 a))) (fun a => x8 (ix1 a)) a := by
  have i38 : idx_main_v37 (idx_main_v38 (ix2 b a)) = ix1 a := funext fun d => Fin.ext (by match d with | ⟨0, _⟩ => rfl)
  simp only [val_main_v46_apply, val_main_v45_apply, val_main_v44_apply, val_main_cst_5_apply, val_main_v43_apply,
    val_main_v42_apply, val_main_cst_4_apply, val_main_v41_apply, val_main_v40_apply, val_main_v39_apply,
    val_main_v38_apply, val_main_v37_apply, i38, state_apply, pre_apply]
  rfl

/-- The reference computes the cell: entry (b, a) of its result is the cell's result for unit a on row b of the
    inputs and of the previous state. -/
theorem ref_is_cell (x0 : (⟨S4096x512, .f32⟩ : BufTy).Contents (Elt Ideal)) (x1 : (⟨S4096x2048, .f32⟩ : BufTy).Contents (Elt Ideal)) (x2 : (⟨S2048x2048, .f32⟩ : BufTy).Contents (Elt Ideal)) (x3 : (⟨S2048x512, .f32⟩ : BufTy).Contents (Elt Ideal)) (x4 : (⟨S6144x512, .f32⟩ : BufTy).Contents (Elt Ideal)) (x5 x6 : (⟨S2048, .f32⟩ : BufTy).Contents (Elt Ideal)) (x7 : (⟨S2560x2048, .f32⟩ : BufTy).Contents (Elt Ideal)) (x8 : (⟨S2048, .f32⟩ : BufTy).Contents (Elt Ideal)) :
      Cert.ReferenceIdeal.Read.val_main_v54 (F := Ideal) x0 x1 x2 x3 x4 x5 x6 x7 x8 = Cert.Cell.G x0 x1 x2 x3 x4 x5 x6 x7 x8 := by
  funext i
  obtain ⟨b, a, rfl⟩ : ∃ (b : Fin 4096) (a : Fin 2048), i = ix2 b a := ⟨i 0, i 1, eq_ix2 i⟩
  -- the padding adds no entries: the padded array at an index is its operand at the same index
  have hpad : val_main_v54 (F := Ideal) x0 x1 x2 x3 x4 x5 x6 x7 x8 (ix2 b a)
      = val_main_v53 (F := Ideal) x0 x1 x2 x3 x4 x5 x6 x7 x8 (ix2 b a) := by
    unfold val_main_v54
    exact pad_apply_of_inside _ _ _ _ _ pads_S4096x2048_S4096x2048_000_000 h_S_ (ix2 b a) (ix2 b a)
      (fun d => by
        match d with
        | ⟨0, _⟩ => show b.val = 0 + b.val * (0 + 1); omega
        | ⟨1, _⟩ => show a.val = 0 + a.val * (0 + 1); omega)
  have i48 : idx_main_v47 (idx_main_v48 (ix2 b a)) = ix1 a := funext fun d => Fin.ext (by match d with | ⟨0, _⟩ => rfl)
  have i51 : idx_main_v50 (idx_main_v51 (ix2 b a)) = ix1 a := funext fun d => Fin.ext (by match d with | ⟨0, _⟩ => rfl)
  rw [hpad]
  simp only [val_main_v53_apply, val_main_v49_apply, val_main_v52_apply, val_main_v48_apply, val_main_v47_apply, i48,
    val_main_v51_apply, val_main_v50_apply, i51, threshold_apply, gated_apply]
  rfl

end Cert.ReferenceIdeal.RefValue

end
-- ==== Proof.lean ====
/-
  A gated, leaky recurrent cell with a semantic gate and a spike threshold, as one fused kernel over 64-row batch tiles,
  against its plain array reference: on the extended reals the two compute the same 4096 × 2048 array.

  For batch row b and unit a, with x the row of the inputs and p the row of the previous state,
    gate j   = σ (Σ_k x_k · W_gate[j, k])       (j = a, 2048 + a, 4096 + a: input, forget, output gate)
    state    = gate_o · ((1 − leak_a) · (gate_f · p_a) + leak_a · tanh (gate_i · (Σ_k x_k · W_in[a, k] + Σ_k p_k · W_res[k, a])))
    s        = state · σ (Σ_{k<512} x_k · sg[k, a] + Σ_{k<2048} state_k · sg[512 + k, a] + bias_a)
    out      = s − thr_a if s > thr_a, else s
  with σ z = 1 / (1 + e^{−z}), leak = σ (leak_rate_param), thr = softplus (spike_threshold_param)
  (Proof/CellSpec.lean states this once, as `Cert.Cell.G`).

  The reference is this formula operation by operation (Proof/RefIsCell.lean); it contracts the row [x, state] of
  length 2560 against `sg` in one sum, which splits at position 512 into the two sums above — addition on the extended
  reals is commutative and associative, so no entry has to be finite and the precondition is never opened. The kernel
  multiplies the re-laid weights block by block with each product a sum into a zero accumulator, applies the logistic
  function as one operation — on the extended reals it is by definition 1 / (1 + e^{−z}), the expression the reference
  spells — and changes float formats, which is the identity there: at an entry of a block its body is the formula of
  that row (Proof/BodyIsRow.lean, over the windows read at an index in Proof/EntryBlocks.lean), the 64 blocks cover the
  array, and the host's final padding by nothing reads it at the same index (Proof/KernelValue.lean).
  The idealization rewrote no operation, so `preserves` has nothing to state.
-/
import proofs.«144517_j88399016887038_1_alg».proof.Defs
import proofs.«144517_j88399016887038_1_alg».proof.Proof.Gen.Kernel
import proofs.«144517_j88399016887038_1_alg».proof.Proof.Gen.Kernel.Skeleton
import proofs.«144517_j88399016887038_1_alg».proof.Proof.Gen.Kernel.Launch
import proofs.«144517_j88399016887038_1_alg».proof.Proof.Gen.Kernel.Points
import proofs.«144517_j88399016887038_1_alg».proof.Proof.Gen.Kernel.Frame
import proofs.«144517_j88399016887038_1_alg».proof.Proof.Gen.KernelIdeal
import proofs.«144517_j88399016887038_1_alg».proof.Proof.Gen.KernelIdeal.Skeleton
import proofs.«144517_j88399016887038_1_alg».proof.Proof.Gen.KernelIdeal.Launch
import proofs.«144517_j88399016887038_1_alg».proof.Proof.Gen.KernelIdeal.Points
import proofs.«144517_j88399016887038_1_alg».proof.Proof.Gen.KernelIdeal.Frame
import proofs.«144517_j88399016887038_1_alg».proof.Proof.Gen.ReferenceIdeal
import proofs.«144517_j88399016887038_1_alg».proof.Proof.Gen.ReferenceIdeal.Run
import proofs.«144517_j88399016887038_1_alg».proof.Proof.Gen.ReferenceIdeal.Read
import proofs.«144517_j88399016887038_1_alg».proof.Proof.Gen.Pre_finite_inputs
import proofs.«144517_j88399016887038_1_alg».proof.Proof.CellSpec
import proofs.«144517_j88399016887038_1_alg».proof.Proof.EntryBlocks
import proofs.«144517_j88399016887038_1_alg».proof.Proof.BodyIsRow
import proofs.«144517_j88399016887038_1_alg».proof.Proof.KernelValue
import proofs.«144517_j88399016887038_1_alg».proof.Proof.RefIsCell
import Idealize.ShloMosaic.Adequacy
import Idealize.ShloMosaic.Init

noncomputable section

namespace Cert.Proof

open Idealize.ShloMosaic Idealize.SL.Sem

/-- The kernel as printed and its idealization run and leave their arguments unchanged. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the cell's result of the argument arrays, which agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.ref_is_cell]
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
